-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S_ : Shape := ⟨0, ![]⟩
abbrev S4096x8192 : Shape := ⟨2, ![4096, 8192]⟩

abbrev nBuf : Space → Nat
  | .hbm => 2
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

abbrev grid0 : Pipeline.Grid := ⟨1, ![2], ![false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  v0
def k0_off1 (i : grid0.Coords) : Fin 2 → Nat :=
  let arg0 : BitVec 32 := BitVec.ofNat 32 (i 0).val
  let c4096_i32 : BitVec 32 := 4096#32
  let v0 : BitVec 32 := Scalar.muli arg0 c4096_i32
  let v1 : BitVec 32 := v0
  let c0_i32 : BitVec 32 := 0#32
  ![v1.toNat, 0]

class Facts₀ : Prop where
  hcc0_scratch0 : 0 + S_.numel ≤ 1
  k0_mult1_dvd : ∀ i : grid0.Coords, 4096 ∣ (k0_mult1 i).toNat
  k0_off1_inb : ∀ i : grid0.Coords, ∀ a, (k0_off1 i) a + S4096x8192.size a ≤ S8192x8192.size a

variable [Facts₀]

abbrev cc0_scratch0 : DmaSems sig S_ := SemArray.consecutive 0 S_ hcc0_scratch0

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x8192 : Shape := ⟨2, ![8192, 8192]⟩

abbrev nBuf : Space → Nat
  | .hbm => 1
  | .vmem => 0
  | .smem => 0
  | _ => 0

abbrev bufTy : (tb : Table) → Fin (tcTables nBuf tb) → BufTy
  | .hbm, ⟨0, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.CopyBitsBody.lean ====
/-
  The copy kernel's body at one grid point. Point t of the two-point grid starts ONE transfer — rows 4096 t … 4096 t + 4095
  (all 8192 columns) of the argument array, left in HBM, into the same rows of the result array, also left in HBM — on the
  kernel's one DMA semaphore, and waits for it before returning. Nothing is staged and nothing is computed: after the point
  the result holds the argument's rows on that half and what it held before on the other half (`copied`), the argument
  is as it was and the semaphore is back at zero. `run_pt`: the point's run, at a symbolic point and symbolic contents.
-/
import proofs.«117301_j27848567947409_2_alg».proof.Proof.Gen.Kernel
import proofs.«117301_j27848567947409_2_alg».proof.Proof.Gen.Kernel.Skeleton
import proofs.«117301_j27848567947409_2_alg».proof.Proof.Gen.Kernel.Launch
import proofs.«117301_j27848567947409_2_alg».proof.Proof.Gen.Kernel.Points
import Idealize.ShloMosaic.Lib.Transfers
import Idealize.ShloMosaic.Lib.Writes
import Idealize.ShloMosaic.Lib.Pipeline.FrameBody
import Idealize.ShloMosaic.Lib.Pipeline.Routed
import Idealize.ShloMosaic.Lib.Tactic

noncomputable section

namespace Cert.Proof.CopyBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the run: the pipeline library's rounds copy beside the transfers' counters. -/
abbrev UC : Type := UR sig nD τ × Counters
local notation "𝕄" => MT nD τ sig Unit (Elt F) ℕ UC ℕ

/-- The contents type of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The half of the result that point `t` writes: rows 4096 t … 4096 t + 4095, every column; -/
abbrev dstM (t : Fin grid0.N) : Memref sig .tc .hbm S4096x8192 .f32 :=
  (Memref.whole main_v0).slice (Rect.unit (s := S8192x8192) (k0_off1 (grid0.coords t)) S4096x8192.size (k0_off1_inb (grid0.coords t))) (fun _ => rfl)
/-- and the half of the argument it reads: the same rows. -/
abbrev srcM (t : Fin grid0.N) : Memref sig .tc .hbm S4096x8192 .f32 :=
  (Memref.whole main_arg0).slice (Rect.unit (s := S8192x8192) (k0_off1 (grid0.coords t)) S4096x8192.size (k0_off1_inb (grid0.coords t))) (fun _ => rfl)

/-- The result's contents after point `t`, from the argument's contents `fa` and the result's contents `fv` before it:
    `fv` with the point's half overwritten by that half of `fa`. -/
def copied (t : Fin grid0.N) {c : Dev nD} (fa : Bf (F := F) c (Memref.whole main_arg0)) (fv : Bf (F := F) c (Memref.whole main_v0)) :
    Bf (F := F) c (Memref.whole main_v0) :=
  (dstM t).view.write (Elt F) fv (ReadAs.same.apply ((srcM t).view.read (Elt F) fa)) Finset.univ

variable (c : Dev nD) (fa : Bf (F := F) c (Memref.whole main_arg0)) (fv : Bf (F := F) c (Memref.whole main_v0)) (W : Waits sig Unit)

/-- Point `t`: the transfer is started and waited for. The argument comes back as it was, the result at `copied t`, the
    semaphore at zero, the wait recorded. -/
theorem run_pt (t : Fin grid0.N) (Q : PUnit → sProp 𝕄) :
    iprop(pt c (Memref.whole main_arg0) fa ∗ pt c (Memref.whole main_v0) fv
      ∗ semVal ((c : Thread nD τ), SemLoc.dma (0 : DmaSem sig)) 0 ∗ owes (c : Thread nD τ) 0 W
      ∗ (iprop(pt c (Memref.whole main_arg0) fa
          ∗ pt c (Memref.whole main_v0) (copied t fa fv)
          ∗ semVal ((c : Thread nD τ), SemLoc.dma (0 : DmaSem sig)) 0
          ∗ owes (c : Thread nD τ) 0 (insert (SemLoc.dma (0 : DmaSem sig), default) W)) -∗ Q ⟨⟩))
      ⊢ wp frame (wpE (defs₀ (F := F)) Variants.none c none) Set.univ (bodyAt0 t) Q := by
  unfold bodyAt0
  iintro ⟨Ha, Hv, Hs, HO, Hk⟩
  sl_exec!
  sl_step
  iapply Hk
  isplitl [Ha]; · iexact Ha
  isplitl [Hv]; · iexact Hv
  isplitl [Hs]; · iexact Hs
  iexact HO

end Cert.Proof.CopyBits

end
-- ==== Proof.CopyBitsRun.lean ====
/-
  The copy kernel's run. @main is the kernel region alone: a two-point grid with NO window — the argument and the result both
  stay in HBM and the body moves the rows itself (Proof/CopyBitsBody.lean). So both arrays are routed through the body's
  invariant: before point 0 they are as launched, after point 0 the result has its upper half copied, after point 1 both halves;
  the kernel's one DMA semaphore is at zero between points. `run_main`: for any float values, from any memory with zero
  counters, every weakly fair execution of @main on the TensorCores terminates, and every final state has the argument as
  launched and the result at the two copies applied in turn to its launch contents.
-/
import proofs.«117301_j27848567947409_2_alg».proof.Proof.CopyBitsBody
import proofs.«117301_j27848567947409_2_alg».proof.Proof.Gen.Kernel.Frame

noncomputable section

namespace Cert.Proof.CopyBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cell: its one scratch DMA semaphore. -/
abbrev osem : Fin 1 → SemLoc sig := fun _ => .dma 0

/-- The buffers routed through the body: the argument (read by the transfers) and the result (written by them). -/
abbrev R : Finset (Ref sig .tc) := {main_arg0, main_v0}

/-- The result after point 0 and after point 1. -/
def res1 (c : Dev nD) : Buf (Elt F) ((c : Thread nD τ).loc main_v0) := copied t0_0 (V m c main_arg0) (V m c main_v0)
def res2 (c : Dev nD) : Buf (Elt F) ((c : Thread nD τ).loc main_v0) := copied t0_1 (V m c main_arg0) (res1 m c)

/-- The routed buffers' contents after point 0 and after point 1, as valuations. -/
def Y1 (c : Dev nD) : (b : Ref sig .tc) → Buf (Elt F) ((c : Thread nD τ).loc b) := Function.update (V m c) main_v0 (res1 m c)
def Y2 (c : Dev nD) : (b : Ref sig .tc) → Buf (Elt F) ((c : Thread nD τ).loc b) := Function.update (V m c) main_v0 (res2 m c)

theorem Y1_v0 (c : Dev nD) : Y1 m c main_v0 = res1 m c := Function.update_self ..
theorem Y2_v0 (c : Dev nD) : Y2 m c main_v0 = res2 m c := Function.update_self ..
theorem Y1_arg0 (c : Dev nD) : Y1 m c main_arg0 = V m c main_arg0 := Function.update_of_ne (by decide) ..
theorem Y2_arg0 (c : Dev nD) : Y2 m c main_arg0 = V m c main_arg0 := Function.update_of_ne (by decide) ..

/-! ## The proof data -/

/-- The proof data on core `c`: no window; the invariant is the two routed arrays at the contents reached so far, the cell at
    zero, the register; nothing owed. -/
def dats (_ : Fin 1) (c : Dev nD) : Dat τ (Elt F) Unit ℕ UC ℕ cfg0 c where
  A w := w.elim0
  after w := w.elim0
  Φ t := match t with
    | ⟨0, _⟩ => Ends cfg0.spec osem R c (V m c)
    | ⟨1, _⟩ => Ends cfg0.spec osem R c (Y1 m c)
    | ⟨_ + 2, _⟩ => Ends cfg0.spec osem R c (Y2 m c)
  q _ := fullShare
  owed _ := 0

abbrev 𝒱₀ : Variants := Variants.none

omit [FloatOps F] in
/-- The kernel's own cell at zero. -/
theorem ownSems0_eq (c : Dev nD) :
    (Pipeline.ownSems0 (Ix := Unit) (Name := ℕ) (U := UC) (Lvl := ℕ) (Val := Elt F) (τ := τ) osem c : sProp 𝕄)
      = semVal ((c : Thread nD τ), SemLoc.dma (0 : DmaSem sig)) 0 :=
  Pipeline.ownSems0_eq_of_list c osem [0] (by decide) (by decide)

/-- `Ends` at this program's lists: the two arrays, the cell, the register (no scoped buffer). -/
theorem ends_eq (c : Dev nD) (W : (b : Ref sig .tc) → Buf (Elt F) ((c : Thread nD τ).loc b)) :
    (Ends cfg0.spec osem R c W : sProp 𝕄)
      = iprop((pt c (Memref.whole main_arg0) (W main_arg0) ∗ pt c (Memref.whole main_v0) (W main_v0))
          ∗ semVal ((c : Thread nD τ), SemLoc.dma (0 : DmaSem sig)) 0 ∗ emp ∗ ∃ r, prngReg c r) := by
  unfold Ends routed
  rw [BI.bigSep_insert (by decide), BI.bigSep_singleton, ownSems0_eq, scopedRest0_eq]
  rfl

/-- The core's `owes` as the post wants it, from what a run hands back. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- One point from one valuation of the routed arrays to the next. -/
theorem step_pt (c : Dev nD) (t : Fin cfg0.N) (t' t'' : Fin (cfg0.N + 1))
    (W W' : (b : Ref sig .tc) → Buf (Elt F) ((c : Thread nD τ).loc b))
    (ha : W' main_arg0 = W main_arg0) (hv : W' main_v0 = copied t (W main_arg0) (W main_v0)) :
    iprop(Ends cfg0.spec osem R c W ∗ (dats m 0 c).owesAt () t' ∗ emp)
      ⊢ wp frame (wpE (defs₀ (F := F)) Variants.none c none) Set.univ (bodyAt0 t)
          (fun _ => iprop(Ends cfg0.spec osem R c W' ∗ (dats m 0 c).owesAt () t'' ∗ emp)) := by
  rw [ends_eq, ends_eq, ha, hv]
  unfold Dat.owesAt Pipeline.owesWithin
  rw [show (dats m 0 c).owed t' = 0 from rfl]
  iintro ⟨⟨⟨Ha, Hv⟩, Hs, He, Hp⟩, ⟨%Wt, %hW, HO⟩, -⟩
  iapply (run_pt c (W main_arg0) (W main_v0) Wt t)
  isplitl [Ha]; · iexact Ha
  isplitl [Hv]; · iexact Hv
  isplitl [Hs]; · iexact Hs
  isplitl [HO]; · iexact HO
  iintro ⟨Ha, Hv, Hs, HO⟩
  isplitl [Ha Hv Hs He Hp]
  · isplitl [Ha Hv]; · isplitl [Ha] <;> iassumption
    isplitl [Hs]; · iexact Hs
    isplitl [He] <;> iassumption
  isplitl [HO]
  · ihave H := (owesAt_intro m c t'' _) $$ HO
    unfold Dat.owesAt Pipeline.owesWithin
    iexact H
  iempintro

omit [FloatOps F] in
/-- A separating conjunction over no window is empty. -/
theorem bigSep_nowin (Φ : Fin cfg0.W → sProp 𝕄) : bigSep Finset.univ Φ = (BI.emp : sProp 𝕄) := by
  rw [show (Finset.univ : Finset (Fin cfg0.W)) = ∅ from rfl]; rfl

/-- The library's body obligation, at every point. -/
theorem body_obligation (c : Dev nD) : BodyObligation (dats (F := F) m 0 c) (defs₀ (F := F)) 𝒱₀ () Set.univ := fun t => by
  rw [bigSep_nowin, bigSep_nowin]
  rcases fin_N0 t with rfl | rfl
  · exact step_pt m c t0_0 _ _ (V m c) (Y1 m c) (Y1_arg0 m c) (Y1_v0 m c)
  · exact step_pt m c t0_1 _ _ (Y1 m c) (Y2 m c) ((Y2_arg0 m c).trans (Y1_arg0 m c).symm)
      ((Y2_v0 m c).trans (by rw [Y1_arg0, Y1_v0]; rfl))

/-! ## The launch -/

/-- The layout the launch needs of the kernel's own semaphore: scoped, and no staging semaphore. -/
theorem ownSemFacts : Pipeline.OwnSemFacts cfg0.spec osem := by decide

/-- At the compiled mesh, for any float values, from any memory with zero counters: every weakly fair execution of @main on
    the TensorCores terminates, and every final state has the argument as launched and the result at `res2`. -/
theorem run_main : θ_run defs (onTc (τ := τ) (main (F := F))) (s₀ m ρ) (RoutedPost cfgs (dats m) 0 R (V m) (Y2 m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := R) (hR := by decide) (Y := Y2 m) (hin := fun _ => .rfl) (hout := fun _ => .rfl)

/-! ## The final contents, read off the post -/

variable {m ρ}

theorem final_v0 {r : PUnit × MemSt nD τ sig (Elt F)} (h : RoutedPost cfgs (dats m) 0 R (V m) (Y2 m) r) (c : Dev nD) :
    r.2.mem ((c : Thread nD τ).loc main_v0) = res2 m c :=
  ((h c).2.1 main_v0 (by decide)).trans (Y2_v0 m c)

theorem final_arg0 {r : PUnit × MemSt nD τ sig (Elt F)} (h : RoutedPost cfgs (dats m) 0 R (V m) (Y2 m) r) (c : Dev nD) :
    r.2.mem ((c : Thread nD τ).loc main_arg0) = m ((c : Thread nD τ).loc main_arg0) :=
  ((h c).2.1 main_arg0 (by decide)).trans (Y2_arg0 m c)

end Cert.Proof.CopyBits

end
-- ==== Proof.CopyIdealBody.lean ====
/-
  The copy kernel's body at one grid point. Point t of the two-point grid starts ONE transfer — rows 4096 t … 4096 t + 4095
  (all 8192 columns) of the argument array, left in HBM, into the same rows of the result array, also left in HBM — on the
  kernel's one DMA semaphore, and waits for it before returning. Nothing is staged and nothing is computed: after the point
  the result holds the argument's rows on that half and what it held before on the other half (`copied`), the argument
  is as it was and the semaphore is back at zero. `run_pt`: the point's run, at a symbolic point and symbolic contents.
-/
import proofs.«117301_j27848567947409_2_alg».proof.Proof.Gen.KernelIdeal
import proofs.«117301_j27848567947409_2_alg».proof.Proof.Gen.KernelIdeal.Skeleton
import proofs.«117301_j27848567947409_2_alg».proof.Proof.Gen.KernelIdeal.Launch
import proofs.«117301_j27848567947409_2_alg».proof.Proof.Gen.KernelIdeal.Points
import Idealize.ShloMosaic.Lib.Transfers
import Idealize.ShloMosaic.Lib.Writes
import Idealize.ShloMosaic.Lib.Pipeline.FrameBody
import Idealize.ShloMosaic.Lib.Pipeline.Routed
import Idealize.ShloMosaic.Lib.Tactic

noncomputable section

namespace Cert.Proof.CopyIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the run: the pipeline library's rounds copy beside the transfers' counters. -/
abbrev UC : Type := UR sig nD τ × Counters
local notation "𝕄" => MT nD τ sig Unit (Elt F) ℕ UC ℕ

/-- The contents type of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The half of the result that point `t` writes: rows 4096 t … 4096 t + 4095, every column; -/
abbrev dstM (t : Fin grid0.N) : Memref sig .tc .hbm S4096x8192 .f32 :=
  (Memref.whole main_v0).slice (Rect.unit (s := S8192x8192) (k0_off1 (grid0.coords t)) S4096x8192.size (k0_off1_inb (grid0.coords t))) (fun _ => rfl)
/-- and the half of the argument it reads: the same rows. -/
abbrev srcM (t : Fin grid0.N) : Memref sig .tc .hbm S4096x8192 .f32 :=
  (Memref.whole main_arg0).slice (Rect.unit (s := S8192x8192) (k0_off1 (grid0.coords t)) S4096x8192.size (k0_off1_inb (grid0.coords t))) (fun _ => rfl)

/-- The result's contents after point `t`, from the argument's contents `fa` and the result's contents `fv` before it:
    `fv` with the point's half overwritten by that half of `fa`. -/
def copied (t : Fin grid0.N) {c : Dev nD} (fa : Bf (F := F) c (Memref.whole main_arg0)) (fv : Bf (F := F) c (Memref.whole main_v0)) :
    Bf (F := F) c (Memref.whole main_v0) :=
  (dstM t).view.write (Elt F) fv (ReadAs.same.apply ((srcM t).view.read (Elt F) fa)) Finset.univ

variable (c : Dev nD) (fa : Bf (F := F) c (Memref.whole main_arg0)) (fv : Bf (F := F) c (Memref.whole main_v0)) (W : Waits sig Unit)

/-- Point `t`: the transfer is started and waited for. The argument comes back as it was, the result at `copied t`, the
    semaphore at zero, the wait recorded. -/
theorem run_pt (t : Fin grid0.N) (Q : PUnit → sProp 𝕄) :
    iprop(pt c (Memref.whole main_arg0) fa ∗ pt c (Memref.whole main_v0) fv
      ∗ semVal ((c : Thread nD τ), SemLoc.dma (0 : DmaSem sig)) 0 ∗ owes (c : Thread nD τ) 0 W
      ∗ (iprop(pt c (Memref.whole main_arg0) fa
          ∗ pt c (Memref.whole main_v0) (copied t fa fv)
          ∗ semVal ((c : Thread nD τ), SemLoc.dma (0 : DmaSem sig)) 0
          ∗ owes (c : Thread nD τ) 0 (insert (SemLoc.dma (0 : DmaSem sig), default) W)) -∗ Q ⟨⟩))
      ⊢ wp frame (wpE (defs₀ (F := F)) Variants.none c none) Set.univ (bodyAt0 t) Q := by
  unfold bodyAt0
  iintro ⟨Ha, Hv, Hs, HO, Hk⟩
  sl_exec!
  sl_step
  iapply Hk
  isplitl [Ha]; · iexact Ha
  isplitl [Hv]; · iexact Hv
  isplitl [Hs]; · iexact Hs
  iexact HO

end Cert.Proof.CopyIdeal

end
-- ==== Proof.CopyIdealRun.lean ====
/-
  The copy kernel's run. @main is the kernel region alone: a two-point grid with NO window — the argument and the result both
  stay in HBM and the body moves the rows itself (Proof/CopyIdealBody.lean). So both arrays are routed through the body's
  invariant: before point 0 they are as launched, after point 0 the result has its upper half copied, after point 1 both halves;
  the kernel's one DMA semaphore is at zero between points. `run_main`: for any float values, from any memory with zero
  counters, every weakly fair execution of @main on the TensorCores terminates, and every final state has the argument as
  launched and the result at the two copies applied in turn to its launch contents.
-/
import proofs.«117301_j27848567947409_2_alg».proof.Proof.CopyIdealBody
import proofs.«117301_j27848567947409_2_alg».proof.Proof.Gen.KernelIdeal.Frame

noncomputable section

namespace Cert.Proof.CopyIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cell: its one scratch DMA semaphore. -/
abbrev osem : Fin 1 → SemLoc sig := fun _ => .dma 0

/-- The buffers routed through the body: the argument (read by the transfers) and the result (written by them). -/
abbrev R : Finset (Ref sig .tc) := {main_arg0, main_v0}

/-- The result after point 0 and after point 1. -/
def res1 (c : Dev nD) : Buf (Elt F) ((c : Thread nD τ).loc main_v0) := copied t0_0 (V m c main_arg0) (V m c main_v0)
def res2 (c : Dev nD) : Buf (Elt F) ((c : Thread nD τ).loc main_v0) := copied t0_1 (V m c main_arg0) (res1 m c)

/-- The routed buffers' contents after point 0 and after point 1, as valuations. -/
def Y1 (c : Dev nD) : (b : Ref sig .tc) → Buf (Elt F) ((c : Thread nD τ).loc b) := Function.update (V m c) main_v0 (res1 m c)
def Y2 (c : Dev nD) : (b : Ref sig .tc) → Buf (Elt F) ((c : Thread nD τ).loc b) := Function.update (V m c) main_v0 (res2 m c)

theorem Y1_v0 (c : Dev nD) : Y1 m c main_v0 = res1 m c := Function.update_self ..
theorem Y2_v0 (c : Dev nD) : Y2 m c main_v0 = res2 m c := Function.update_self ..
theorem Y1_arg0 (c : Dev nD) : Y1 m c main_arg0 = V m c main_arg0 := Function.update_of_ne (by decide) ..
theorem Y2_arg0 (c : Dev nD) : Y2 m c main_arg0 = V m c main_arg0 := Function.update_of_ne (by decide) ..

/-! ## The proof data -/

/-- The proof data on core `c`: no window; the invariant is the two routed arrays at the contents reached so far, the cell at
    zero, the register; nothing owed. -/
def dats (_ : Fin 1) (c : Dev nD) : Dat τ (Elt F) Unit ℕ UC ℕ cfg0 c where
  A w := w.elim0
  after w := w.elim0
  Φ t := match t with
    | ⟨0, _⟩ => Ends cfg0.spec osem R c (V m c)
    | ⟨1, _⟩ => Ends cfg0.spec osem R c (Y1 m c)
    | ⟨_ + 2, _⟩ => Ends cfg0.spec osem R c (Y2 m c)
  q _ := fullShare
  owed _ := 0

abbrev 𝒱₀ : Variants := Variants.none

omit [FloatOps F] in
/-- The kernel's own cell at zero. -/
theorem ownSems0_eq (c : Dev nD) :
    (Pipeline.ownSems0 (Ix := Unit) (Name := ℕ) (U := UC) (Lvl := ℕ) (Val := Elt F) (τ := τ) osem c : sProp 𝕄)
      = semVal ((c : Thread nD τ), SemLoc.dma (0 : DmaSem sig)) 0 :=
  Pipeline.ownSems0_eq_of_list c osem [0] (by decide) (by decide)

/-- `Ends` at this program's lists: the two arrays, the cell, the register (no scoped buffer). -/
theorem ends_eq (c : Dev nD) (W : (b : Ref sig .tc) → Buf (Elt F) ((c : Thread nD τ).loc b)) :
    (Ends cfg0.spec osem R c W : sProp 𝕄)
      = iprop((pt c (Memref.whole main_arg0) (W main_arg0) ∗ pt c (Memref.whole main_v0) (W main_v0))
          ∗ semVal ((c : Thread nD τ), SemLoc.dma (0 : DmaSem sig)) 0 ∗ emp ∗ ∃ r, prngReg c r) := by
  unfold Ends routed
  rw [BI.bigSep_insert (by decide), BI.bigSep_singleton, ownSems0_eq, scopedRest0_eq]
  rfl

/-- The core's `owes` as the post wants it, from what a run hands back. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- One point from one valuation of the routed arrays to the next. -/
theorem step_pt (c : Dev nD) (t : Fin cfg0.N) (t' t'' : Fin (cfg0.N + 1))
    (W W' : (b : Ref sig .tc) → Buf (Elt F) ((c : Thread nD τ).loc b))
    (ha : W' main_arg0 = W main_arg0) (hv : W' main_v0 = copied t (W main_arg0) (W main_v0)) :
    iprop(Ends cfg0.spec osem R c W ∗ (dats m 0 c).owesAt () t' ∗ emp)
      ⊢ wp frame (wpE (defs₀ (F := F)) Variants.none c none) Set.univ (bodyAt0 t)
          (fun _ => iprop(Ends cfg0.spec osem R c W' ∗ (dats m 0 c).owesAt () t'' ∗ emp)) := by
  rw [ends_eq, ends_eq, ha, hv]
  unfold Dat.owesAt Pipeline.owesWithin
  rw [show (dats m 0 c).owed t' = 0 from rfl]
  iintro ⟨⟨⟨Ha, Hv⟩, Hs, He, Hp⟩, ⟨%Wt, %hW, HO⟩, -⟩
  iapply (run_pt c (W main_arg0) (W main_v0) Wt t)
  isplitl [Ha]; · iexact Ha
  isplitl [Hv]; · iexact Hv
  isplitl [Hs]; · iexact Hs
  isplitl [HO]; · iexact HO
  iintro ⟨Ha, Hv, Hs, HO⟩
  isplitl [Ha Hv Hs He Hp]
  · isplitl [Ha Hv]; · isplitl [Ha] <;> iassumption
    isplitl [Hs]; · iexact Hs
    isplitl [He] <;> iassumption
  isplitl [HO]
  · ihave H := (owesAt_intro m c t'' _) $$ HO
    unfold Dat.owesAt Pipeline.owesWithin
    iexact H
  iempintro

omit [FloatOps F] in
/-- A separating conjunction over no window is empty. -/
theorem bigSep_nowin (Φ : Fin cfg0.W → sProp 𝕄) : bigSep Finset.univ Φ = (BI.emp : sProp 𝕄) := by
  rw [show (Finset.univ : Finset (Fin cfg0.W)) = ∅ from rfl]; rfl

/-- The library's body obligation, at every point. -/
theorem body_obligation (c : Dev nD) : BodyObligation (dats (F := F) m 0 c) (defs₀ (F := F)) 𝒱₀ () Set.univ := fun t => by
  rw [bigSep_nowin, bigSep_nowin]
  rcases fin_N0 t with rfl | rfl
  · exact step_pt m c t0_0 _ _ (V m c) (Y1 m c) (Y1_arg0 m c) (Y1_v0 m c)
  · exact step_pt m c t0_1 _ _ (Y1 m c) (Y2 m c) ((Y2_arg0 m c).trans (Y1_arg0 m c).symm)
      ((Y2_v0 m c).trans (by rw [Y1_arg0, Y1_v0]; rfl))

/-! ## The launch -/

/-- The layout the launch needs of the kernel's own semaphore: scoped, and no staging semaphore. -/
theorem ownSemFacts : Pipeline.OwnSemFacts cfg0.spec osem := by decide

/-- At the compiled mesh, for any float values, from any memory with zero counters: every weakly fair execution of @main on
    the TensorCores terminates, and every final state has the argument as launched and the result at `res2`. -/
theorem run_main : θ_run defs (onTc (τ := τ) (main (F := F))) (s₀ m ρ) (RoutedPost cfgs (dats m) 0 R (V m) (Y2 m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := R) (hR := by decide) (Y := Y2 m) (hin := fun _ => .rfl) (hout := fun _ => .rfl)

/-! ## The final contents, read off the post -/

variable {m ρ}

theorem final_v0 {r : PUnit × MemSt nD τ sig (Elt F)} (h : RoutedPost cfgs (dats m) 0 R (V m) (Y2 m) r) (c : Dev nD) :
    r.2.mem ((c : Thread nD τ).loc main_v0) = res2 m c :=
  ((h c).2.1 main_v0 (by decide)).trans (Y2_v0 m c)

theorem final_arg0 {r : PUnit × MemSt nD τ sig (Elt F)} (h : RoutedPost cfgs (dats m) 0 R (V m) (Y2 m) r) (c : Dev nD) :
    r.2.mem ((c : Thread nD τ).loc main_arg0) = m ((c : Thread nD τ).loc main_arg0) :=
  ((h c).2.1 main_arg0 (by decide)).trans (Y2_arg0 m c)

end Cert.Proof.CopyIdeal

end
-- ==== Proof.CopyIdealValue.lean ====
/-
  What the two points' copies leave in the result, entry by entry. The half point `t` writes is rows 4096 t … 4096 t + 4095:
  an entry in one of those rows takes the argument's entry at the same row and column, every other entry keeps what it
  held (`copied_apply`). The two halves are the rows below 4096 and the rows from 4096 on, so after both points every entry
  of the result is the argument's entry there, whatever the result held at the start (`copied_both`).
-/
import proofs.«117301_j27848567947409_2_alg».proof.Proof.CopyIdealBody

noncomputable section

namespace Cert.Proof.CopyIdeal

open Cert.KernelIdeal Cert.KernelIdeal.Gen
open Idealize.ShloMosaic Idealize.ShloMosaic.TcCoe Idealize.SL.Sem

variable {F : FTy → Type} [FloatOps F]

/-- The one coordinate of a grid point is the point's number. -/
theorem coord_val : ∀ t : Fin grid0.N, ((grid0.coords t) 0).val = t.val := by decide

/-- The first row of point `t`'s half is 4096 t, its first column 0. -/
theorem off_row (t : Fin grid0.N) : k0_off1 (grid0.coords t) 0 = 4096 * t.val := by
  rw [k0_off1_eq, ← coord_val t]; rfl
theorem off_col (t : Fin grid0.N) : k0_off1 (grid0.coords t) 1 = 0 := by
  rw [k0_off1_eq]; rfl

variable {c : Dev nD}

/-- An entry of the result after point `t`: the argument's entry if its row lies in the point's half, else what it was. -/
theorem copied_apply (t : Fin grid0.N) (fa : Bf (F := F) c (Memref.whole main_arg0)) (fv : Bf (F := F) c (Memref.whole main_v0))
    (i : S8192x8192.Idx) :
    (copied t fa fv : S8192x8192.Idx → Elt F .f32) i
      = if 4096 * t.val ≤ (i 0).val ∧ (i 0).val < 4096 * t.val + 4096 then (fa : S8192x8192.Idx → Elt F .f32) i
        else (fv : S8192x8192.Idx → Elt F .f32) i := by
  by_cases h : 4096 * t.val ≤ (i 0).val ∧ (i 0).val < 4096 * t.val + 4096
  · rw [if_pos h]
    -- the entry's place inside the half
    let y : S4096x8192.Idx := fun a => match a with
      | ⟨0, _⟩ => ⟨(i 0).val - 4096 * t.val, by show _ < 4096; omega⟩
      | ⟨1, _⟩ => ⟨(i 1).val, (i 1).isLt⟩
    have key : ∀ a : Fin 2, k0_off1 (grid0.coords t) a + 1 * (y a).val = (i a).val :=
      Fin.forall_fin_two.mpr
        ⟨by rw [off_row]; show 4096 * t.val + 1 * ((i 0).val - 4096 * t.val) = (i 0).val; omega,
         by rw [off_col]; show 0 + 1 * (i 1).val = (i 1).val; omega⟩
    have hd : (dstM t).view.emb y = i := by
      funext a; apply Fin.ext; exact key a
    have hs : (srcM t).view.emb y = i := by
      funext a; apply Fin.ext; exact key a
    unfold copied
    have := View.write_emb_of_mem (v := (dstM t).view) (Val := Elt F) fv (ReadAs.same.apply ((srcM t).view.read (Elt F) fa)) (Finset.mem_univ y)
    rw [hd] at this
    rw [this]
    show (srcM t).view.read (Elt F) fa y = _
    rw [View.read_apply, hs]
    rfl
  · rw [if_neg h]
    unfold copied
    refine View.write_of_not_mem _ _ _ ?_
    unfold View.setOn
    rw [Finset.mem_map]
    rintro ⟨y, -, hy⟩
    apply h
    have h0 : k0_off1 (grid0.coords t) 0 + 1 * (y 0).val = (i 0).val := congrArg (fun j => (j 0).val) hy
    rw [off_row] at h0
    have : (y 0).val < 4096 := (y 0).isLt
    omega

/-- After both points the result is the argument, entry by entry, whatever it held at the start. -/
theorem copied_both (fa : Bf (F := F) c (Memref.whole main_arg0)) (fv : Bf (F := F) c (Memref.whole main_v0)) :
    (copied t0_1 fa (copied t0_0 fa fv) : S8192x8192.Idx → Elt F .f32) = fa := by
  funext i
  rw [copied_apply, copied_apply]
  have hi : (i 0).val < 8192 := (i 0).isLt
  have h0 : (t0_0 : Fin grid0.N).val = 0 := rfl
  have h1 : (t0_1 : Fin grid0.N).val = 1 := rfl
  rw [h0, h1]
  by_cases h : (i 0).val < 4096
  · rw [if_neg (by omega), if_pos (by omega)]
  · rw [if_pos (by omega)]

end Cert.Proof.CopyIdeal

end
-- ==== Proof.RefRun.lean ====
/-
  The reference's run. Its @main has no operation at all: it returns its argument. So every weakly fair execution ends at once,
  in a memory where every buffer is as launched; in particular the argument array, which is also the result.
-/
import proofs.«117301_j27848567947409_2_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main is the empty line of host operations. -/
theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the argument array (the result) as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => []) main_eq (fun _ => trivial) m ρ
      (hfresh := fun _ _ h => nomatch h))

end Cert.Proof.RefRun

end
-- ==== Proof.lean ====
/-
  The kernel copies its argument into a fresh result by two transfers, HBM to HBM, one per grid point: point t moves rows
  4096 t … 4096 t + 4095 of the 8192 × 8192 array. The reference returns its argument. So the two agree entry by entry: the
  two halves are the rows below 4096 and the rows from 4096 on, every entry lies in exactly one of them, and a copied entry is
  the argument's entry at the same place (Proof/CopyIdealValue.lean). No arithmetic is done on any entry, so nothing depends on
  the entries being finite.
  The three frames: the kernel's run (Proof/CopyBitsRun.lean at the word level, Proof/CopyIdealRun.lean at the extended reals)
  gives back the argument as launched, and the reference has nothing to run (Proof/RefRun.lean). The idealization rewrote no
  operation, so there is nothing to preserve.
-/
import proofs.«117301_j27848567947409_2_alg».proof.Defs
import proofs.«117301_j27848567947409_2_alg».proof.Proof.Gen.Kernel
import proofs.«117301_j27848567947409_2_alg».proof.Proof.Gen.KernelIdeal
import proofs.«117301_j27848567947409_2_alg».proof.Proof.Gen.ReferenceIdeal
import proofs.«117301_j27848567947409_2_alg».proof.Proof.Gen.Pre_finite_inputs
import proofs.«117301_j27848567947409_2_alg».proof.Proof.CopyBitsRun
import proofs.«117301_j27848567947409_2_alg».proof.Proof.CopyIdealRun
import proofs.«117301_j27848567947409_2_alg».proof.Proof.CopyIdealValue
import proofs.«117301_j27848567947409_2_alg».proof.Proof.RefRun

noncomputable section

namespace Cert.Proof

open Idealize.ShloMosaic Idealize.ShloMosaic.TcCoe Idealize.SL.Sem

/-- The word-level kernel runs and leaves its argument as launched. -/
theorem frame_k : Cert.frame_Kernel := fun m ρ _ =>
  (θ_run Cert.Kernel.defs _ _).mono (fun _ h c => CopyBits.final_arg0 h c) (CopyBits.run_main (F := Bits) m ρ)

/-- So does the idealized kernel. -/
theorem frame_ki : Cert.frame_KernelIdeal := fun m ρ _ =>
  (θ_run Cert.KernelIdeal.defs _ _).mono (fun _ h c => CopyIdeal.final_arg0 h c) (CopyIdeal.run_main (F := Ideal) m ρ)

/-- The reference has nothing to run. -/
theorem frame_ri : Cert.frame_ReferenceIdeal := fun m ρ _ => RefRun.run (F := Ideal) m ρ

/-- The ideal pass rewrote nothing. -/
theorem preserves : Cert.preserves_Kernel_KernelIdeal := trivial

/-- The result after both points is the argument array as launched. -/
theorem res2_eq (m : (ℓ : Loc Cert.KernelIdeal.nD Cert.KernelIdeal.τ Cert.KernelIdeal.sig) → Buf (Elt Ideal) ℓ) (c : Dev Cert.KernelIdeal.nD) :
    (CopyIdeal.res2 m c : Cert.KernelIdeal.S8192x8192.Idx → Elt Ideal .f32)
      = m ((c.tc : Thread Cert.KernelIdeal.nD Cert.KernelIdeal.τ).loc Cert.KernelIdeal.main_arg0) :=
  CopyIdeal.copied_both _ _

/-- Both programs end with the argument's launch contents as their result: the kernel because its two copies cover the
    array, the reference because the result IS the argument. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), ?_, ?_⟩
  · exact (θ_run Cert.KernelIdeal.defs _ _).mono
      (fun _ h c => ⟨(CopyIdeal.final_v0 h c).trans (res2_eq m c), CopyIdeal.final_arg0 h c⟩)
      (CopyIdeal.run_main (F := Ideal) m ρ)
  · exact (θ_run Cert.ReferenceIdeal.defs _ _).mono (fun _ h c => ⟨(h c).trans (hagree c), h c⟩)
      (RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
